-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x2048 : Shape := ⟨3, ![8, 2048, 2048]⟩
abbrev S8x2048x16 : Shape := ⟨3, ![8, 2048, 16]⟩
abbrev S8x16x2048 : Shape := ⟨3, ![8, 16, 2048]⟩
abbrev S2048x2048 : Shape := ⟨2, ![2048, 2048]⟩
abbrev S2048 : Shape := ⟨1, ![2048]⟩
abbrev S_ : Shape := ⟨0, ![]⟩

class Facts : Prop where
  bcast_S_S8x2048x2048 : S_.BroadcastsInDim S8x2048x2048 (![] : Fin 0 → Fin S8x2048x2048.rank)
  reducesTo_S8x2048x2048_S_d0_1_2 : S8x2048x2048.ReducesTo [0, 1, 2] S_
  h_S_ : 0 < S_.numel
  bcast_S_S8x2048x16 : S_.BroadcastsInDim S8x2048x16 (![] : Fin 0 → Fin S8x2048x16.rank)
  reducesTo_S8x2048x16_S_d0_1_2 : S8x2048x16.ReducesTo [0, 1, 2] S_
  bcast_S_S8x16x2048 : S_.BroadcastsInDim S8x16x2048 (![] : Fin 0 → Fin S8x16x2048.rank)
  reducesTo_S8x16x2048_S_d0_1_2 : S8x16x2048.ReducesTo [0, 1, 2] S_
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S8x2048x2048 .f32) (main_arg1 : FVec F S8x2048x16 .f32) (main_arg2 : FVec F S8x16x2048 .f32) (main_arg3 : FVec F S2048x2048 .f32) (main_arg4 : FVec F S2048 .f32) : IVec S_ 1 :=
  let main_v0 : FVec F S8x2048x2048 .f32 := Host.absf main_arg0
  let main_cst : FVec F S_ .f32 := constant S_ .f32 0x7F800000#32
  let main_v1 : FVec F S8x2048x2048 .f32 := broadcastInDim S8x2048x2048 ![] bcast_S_S8x2048x2048 main_cst
  let main_v2 : IVec S8x2048x2048 1 := cmpf .olt main_v0 main_v1
  let main_c : IVec S_ 1 := constantI S_ 1 1#1
  let main_v3 : IVec S_ 1 := (fun x v => Host.reduce IntOp.andi x v reducesTo_S8x2048x2048_S_d0_1_2 h_S_) main_v2 main_c
  let main_v4 : FVec F S8x2048x16 .f32 := Host.absf main_arg1
  let main_cst_0 : FVec F S_ .f32 := constant S_ .f32 0x7F800000#32
  let main_v5 : FVec F S8x2048x16 .f32 := broadcastInDim S8x2048x16 ![] bcast_S_S8x2048x16 main_cst_0
  let main_v6 : IVec S8x2048x16 1 := cmpf .olt main_v4 main_v5
  let main_c_1 : IVec S_ 1 := constantI S_ 1 1#1
  let main_v7 : IVec S_ 1 := (fun x v => Host.reduce IntOp.andi x v reducesTo_S8x2048x16_S_d0_1_2 h_S_) main_v6 main_c_1
  let main_v8 : IVec S_ 1 := andi main_v3 main_v7
  let main_v9 : FVec F S8x16x2048 .f32 := Host.absf main_arg2
  let main_cst_2 : FVec F S_ .f32 := constant S_ .f32 0x7F800000#32
  let main_v10 : FVec F S8x16x2048 .f32 := broadcastInDim S8x16x2048 ![] bcast_S_S8x16x2048 main_cst_2
  let main_v11 : IVec S8x16x2048 1 := cmpf .olt main_v9 main_v10
  let main_c_3 : IVec S_ 1 := constantI S_ 1 1#1
  let main_v12 : IVec S_ 1 := (fun x v => Host.reduce IntOp.andi x v reducesTo_S8x16x2048_S_d0_1_2 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_v13 main_v16
-- ==== Kernel.lean ====
abbrev S8x2048x2048 : Shape := ⟨3, ![8, 2048, 2048]⟩
abbrev S8x2048x16 : Shape := ⟨3, ![8, 2048, 16]⟩
abbrev S8x16x2048 : Shape := ⟨3, ![8, 16, 2048]⟩
abbrev S2048x2048 : Shape := ⟨2, ![2048, 2048]⟩
abbrev S2048 : Shape := ⟨1, ![2048]⟩
abbrev S1x2048 : Shape := ⟨2, ![1, 2048]⟩
abbrev S1x512x2048 : Shape := ⟨3, ![1, 512, 2048]⟩
abbrev S1x16x2048 : Shape := ⟨3, ![1, 16, 2048]⟩
abbrev S1x2048x16 : Shape := ⟨3, ![1, 2048, 16]⟩
abbrev S512x2048 : Shape := ⟨2, ![512, 2048]⟩
abbrev S16x2048 : Shape := ⟨2, ![16, 2048]⟩
abbrev S512x16 : Shape := ⟨2, ![512, 16]⟩
abbrev S2048x16 : Shape := ⟨2, ![2048, 16]⟩

abbrev nBuf : Space → Nat
  | .hbm => 9
  | .vmem => 10
  | .smem => 0
  | _ => 0

abbrev bufTy : (tb : Table) → Fin (tcTables nBuf tb) → BufTy
  | .hbm, ⟨0, _⟩ => ⟨S8x2048x2048, .f32⟩
  | .hbm, ⟨1, _⟩ => ⟨S8x2048x16, .f32⟩
  | .hbm, ⟨2, _⟩ => ⟨S8x16x2048, .f32⟩
  | .hbm, ⟨3, _⟩ => ⟨S2048x2048, .f32⟩
  | .hbm, ⟨4, _⟩ => ⟨S2048, .f32⟩
  | .hbm, ⟨5, _⟩ => ⟨S2048x2048, .bf16⟩
  | .hbm, ⟨6, _⟩ => ⟨S8x16x2048, .bf16⟩
  | .hbm, ⟨7, _⟩ => ⟨S1x2048, .f32⟩
  | .hbm, ⟨8, _⟩ => ⟨S8x2048x2048, .f32⟩
  | .local _ .vmem, ⟨0, _⟩ => ⟨S1x512x2048, .f32⟩
  | .local _ .vmem, ⟨1, _⟩ => ⟨S1x512x2048, .f32⟩
  | .local _ .vmem, ⟨2, _⟩ => ⟨S2048x2048, .bf16⟩
  | .local _ .vmem, ⟨3, _⟩ => ⟨S1x16x2048, .bf16⟩
  | .local _ .vmem, ⟨4, _⟩ => ⟨S1x16x2048, .bf16⟩
  | .local _ .vmem, ⟨5, _⟩ => ⟨S1x2048x16, .f32⟩
  | .local _ .vmem, ⟨6, _⟩ => ⟨S1x2048x16, .f32⟩
  | .local _ .vmem, ⟨7, _⟩ => ⟨S1x2048, .f32⟩
  | .local _ .vmem, ⟨8, _⟩ => ⟨S1x512x2048, .f32⟩
  | .local _ .vmem, ⟨9, _⟩ => ⟨S1x512x2048, .f32⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x16x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  bitsLt_bf16_f32 : FTy.bits .bf16 < FTy.bits .f32
  shapeCasts_S2048_S1x2048 : S2048.ShapeCasts S1x2048
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1x16x2048_S1x16x2048_0_0_0 : ∀ a, (![0, 0, 0] : Fin 3 → Nat) a + S1x16x2048.size a ≤ S1x16x2048.size a
  h_S1x16x2048 : 0 < S1x16x2048.numel
  shapeCasts_S1x16x2048_S16x2048 : S1x16x2048.ShapeCasts S16x2048
  inb_S1x2048x16_S1x2048x16_0_0_0 : ∀ a, (![0, 0, 0] : Fin 3 → Nat) a + S1x2048x16.size a ≤ S1x2048x16.size a
  h_S1x2048x16 : 0 < S1x2048x16.numel
  shapeCasts_S1x2048x16_S2048x16 : S1x2048x16.ShapeCasts S2048x16
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  shapeCasts_S512x2048_S1x512x2048 : S512x2048.ShapeCasts S1x512x2048
  dot_S512x2048_S2048x2048_S512x2048_1_1_0_0_n_n_wf : DotDims.WF S512x2048 S2048x2048 S512x2048 [1] [1] [0] [0] [] []
  dot_S512x2048_S16x2048_S512x16_1_1_0_0_n_n_wf : DotDims.WF S512x2048 S16x2048 S512x16 [1] [1] [0] [0] [] []
  dot_S512x16_S2048x16_S512x2048_1_1_0_0_n_n_wf : DotDims.WF S512x16 S2048x16 S512x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x2048.size a ≤ S8x2048x2048.size a
  hwx0_0 : ∀ i : grid0.Coords, EltTy.bits .f32 = 32 ∨ (Rect.block (s := S8x2048x2048) S1x512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x2048.size a ≤ S2048x2048.size a
  hwx0_1 : ∀ i : grid0.Coords, EltTy.bits .bf16 = 32 ∨ (Rect.block (s := S2048x2048) S2048x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x2048.size a ≤ S8x16x2048.size a
  hwx0_2 : ∀ i : grid0.Coords, EltTy.bits .bf16 = 32 ∨ (Rect.block (s := S8x16x2048) S1x16x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x16.size a ≤ S8x2048x16.size a
  hwx0_3 : ∀ i : grid0.Coords, EltTy.bits .f32 = 32 ∨ (Rect.block (s := S8x2048x16) S1x2048x16.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x2048.size a ≤ S1x2048.size a
  hwx0_4 : ∀ i : grid0.Coords, EltTy.bits .f32 = 32 ∨ (Rect.block (s := S1x2048) S1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512x2048.size a ≤ S8x2048x2048.size a
  hwx0_5 : ∀ i : grid0.Coords, EltTy.bits .f32 = 32 ∨ (Rect.block (s := S8x2048x2048) S1x512x2048.size (cc0_transform_5 i) (hinb0_5 i)).WholeWords (EltTy.packing .f32)

variable [Facts₀]

def dot_S512x2048_S2048x2048_S512x2048_1_1_0_0_n_n : DotDims S512x2048 S2048x2048 S512x2048 where
  lhsContracting := [1]
  rhsContracting := [1]
  lhsNonContracting := [0]
  rhsNonContracting := [0]
  lhsBatch := []
  rhsBatch := []
  wf := dot_S512x2048_S2048x2048_S512x2048_1_1_0_0_n_n_wf
def dot_S512x2048_S16x2048_S512x16_1_1_0_0_n_n : DotDims S512x2048 S16x2048 S512x16 where
  lhsContracting := [1]
  rhsContracting := [1]
  lhsNonContracting := [0]
  rhsNonContracting := [0]
  lhsBatch := []
  rhsBatch := []
  wf := dot_S512x2048_S16x2048_S512x16_1_1_0_0_n_n_wf
def dot_S512x16_S2048x16_S512x2048_1_1_0_0_n_n : DotDims S512x16 S2048x16 S512x2048 where
  lhsContracting := [1]
  rhsContracting := [1]
  lhsNonContracting := [0]
  rhsNonContracting := [0]
  lhsBatch := []
  rhsBatch := []
  wf := dot_S512x16_S2048x16_S512x2048_1_1_0_0_n_n_wf

abbrev win0_0 : Pipeline.Window sig grid0 :=
  Pipeline.Window.ofSpec (Memref.whole main_arg0) S1x512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S2048x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x16x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1x2048x16.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x512x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x2048x2048 : Shape := ⟨3, ![8, 2048, 2048]⟩
abbrev S8x2048x16 : Shape := ⟨3, ![8, 2048, 16]⟩
abbrev S8x16x2048 : Shape := ⟨3, ![8, 16, 2048]⟩
abbrev S2048x2048 : Shape := ⟨2, ![2048, 2048]⟩
abbrev S2048 : Shape := ⟨1, ![2048]⟩
abbrev S1x1x2048 : Shape := ⟨3, ![1, 1, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S8x2048x16, .f32⟩
  | .hbm, ⟨2, _⟩ => ⟨S8x16x2048, .f32⟩
  | .hbm, ⟨3, _⟩ => ⟨S2048x2048, .f32⟩
  | .hbm, ⟨4, _⟩ => ⟨S2048, .f32⟩
  | .hbm, ⟨5, _⟩ => ⟨S8x2048x2048, .f32⟩
  | .hbm, ⟨6, _⟩ => ⟨S1x1x2048, .f32⟩
  | .hbm, ⟨7, _⟩ => ⟨S8x2048x2048, .f32⟩
  | .hbm, ⟨8, _⟩ => ⟨S8x2048x2048, .f32⟩
  | .hbm, ⟨9, _⟩ => ⟨S8x2048x16, .f32⟩
  | .hbm, ⟨10, _⟩ => ⟨S8x2048x2048, .f32⟩
  | .hbm, ⟨11, _⟩ => ⟨S8x2048x2048, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S8x2048x2048_0_1_2 : S1x1x2048.BroadcastsInDim S8x2048x2048 (![0, 1, 2] : Fin 3 → Fin S8x2048x2048.rank)
  dot_S8x2048x2048_S2048x2048_S8x2048x2048_2_1_01_0_n_n_wf : DotDims.WF S8x2048x2048 S2048x2048 S8x2048x2048 [2] [1] [0, 1] [0] [] []
  dot_S8x2048x2048_S8x16x2048_S8x2048x16_2_2_1_1_0_0_wf : DotDims.WF S8x2048x2048 S8x16x2048 S8x2048x16 [2] [2] [1] [1] [0] [0]
  dot_S8x2048x16_S8x2048x16_S8x2048x2048_2_2_1_1_0_0_wf : DotDims.WF S8x2048x16 S8x2048x16 S8x2048x2048 [2] [2] [1] [1] [0] [0]

variable [Facts₀]

def dot_S8x2048x2048_S2048x2048_S8x2048x2048_2_1_01_0_n_n : DotDims S8x2048x2048 S2048x2048 S8x2048x2048 where
  lhsContracting := [2]
  rhsContracting := [1]
  lhsNonContracting := [0, 1]
  rhsNonContracting := [0]
  lhsBatch := []
  rhsBatch := []
  wf := dot_S8x2048x2048_S2048x2048_S8x2048x2048_2_1_01_0_n_n_wf
def dot_S8x2048x2048_S8x16x2048_S8x2048x16_2_2_1_1_0_0 : DotDims S8x2048x2048 S8x16x2048 S8x2048x16 where
  lhsContracting := [2]
  rhsContracting := [2]
  lhsNonContracting := [1]
  rhsNonContracting := [1]
  lhsBatch := [0]
  rhsBatch := [0]
  wf := dot_S8x2048x2048_S8x16x2048_S8x2048x16_2_2_1_1_0_0_wf
def dot_S8x2048x16_S8x2048x16_S8x2048x2048_2_2_1_1_0_0 : DotDims S8x2048x16 S8x2048x16 S8x2048x2048 where
  lhsContracting := [2]
  rhsContracting := [2]
  lhsNonContracting := [1]
  rhsNonContracting := [1]
  lhsBatch := [0]
  rhsBatch := [0]
  wf := dot_S8x2048x16_S8x2048x16_S8x2048x2048_2_2_1_1_0_0_wf

class Facts : Prop extends Facts₀ where

variable [Facts]
-- ==== Proof.Products.lean ====
/-
  The kernel's three matrix products read at one entry, on the extended reals.

  Each product contracts the LAST axis of both operands (the right operand is used untransposed, row against row) and
  accumulates into a zero block, so at the ideal values entry (p, q) of the result is the plain sum over the
  contraction index k of left[p, k] · right[q, k] — no rounding, no chunk order, whatever precision was requested.
  The contraction index of the dimension record is a one-axis index; it is identified with its one coordinate, and
  the operand indices the record builds from (p, q) and k are (p, k) and (q, k): axis 0 of each operand is kept (it is the
  result's axis 0, respectively 1), axis 1 is the contracted one.
-/
import proofs.«156677_j67774583931082_2_alg».proof.Proof.Gen.KernelIdeal
import Idealize.ShloMosaic.PureOps.Ideal.Laws
import Idealize.ShloMosaic.Lib.ValueIdx

noncomputable section

open scoped BigOperators

namespace Cert.KernelIdeal.Products

open Cert.KernelIdeal Cert.KernelIdeal.Gen Idealize.ShloMosaic Idealize.ShloMosaic.ValueIdx

/-! ### `dense_entry` -/

theorem dense_entry_l0 (i : S512x2048.Idx) (c : dot_S512x2048_S2048x2048_S512x2048_1_1_0_0_n_n.contr.Idx) : (dot_S512x2048_S2048x2048_S512x2048_1_1_0_0_n_n.lhsIdx i c 0).val = (i 0).val := by
  unfold DotDims.lhsIdx
  rw [dif_neg (show ¬(0 : Fin S512x2048.rank) ∈ dot_S512x2048_S2048x2048_S512x2048_1_1_0_0_n_n.lhsBatch by decide),
    dif_pos (show (0 : Fin S512x2048.rank) ∈ dot_S512x2048_S2048x2048_S512x2048_1_1_0_0_n_n.lhsNonContracting by decide)]
  rfl
theorem dense_entry_l1 (i : S512x2048.Idx) (c : dot_S512x2048_S2048x2048_S512x2048_1_1_0_0_n_n.contr.Idx) : (dot_S512x2048_S2048x2048_S512x2048_1_1_0_0_n_n.lhsIdx i c 1).val = (c ⟨0, by decide⟩).val :=
  dot_S512x2048_S2048x2048_S512x2048_1_1_0_0_n_n.lhsIdx_val_of_single rfl i c
theorem dense_entry_r0 (i : S512x2048.Idx) (c : dot_S512x2048_S2048x2048_S512x2048_1_1_0_0_n_n.contr.Idx) : (dot_S512x2048_S2048x2048_S512x2048_1_1_0_0_n_n.rhsIdx i c 0).val = (i 1).val := by
  unfold DotDims.rhsIdx
  rw [dif_neg (show ¬(0 : Fin S2048x2048.rank) ∈ dot_S512x2048_S2048x2048_S512x2048_1_1_0_0_n_n.rhsBatch by decide),
    dif_pos (show (0 : Fin S2048x2048.rank) ∈ dot_S512x2048_S2048x2048_S512x2048_1_1_0_0_n_n.rhsNonContracting by decide)]
  rfl
theorem dense_entry_r1 (i : S512x2048.Idx) (c : dot_S512x2048_S2048x2048_S512x2048_1_1_0_0_n_n.contr.Idx) : (dot_S512x2048_S2048x2048_S512x2048_1_1_0_0_n_n.rhsIdx i c 1).val = (c ⟨0, by decide⟩).val :=
  dot_S512x2048_S2048x2048_S512x2048_1_1_0_0_n_n.rhsIdx_val_of_single rfl i c

/-- A [512, 2048] block of rows against the [2048, 2048] weight, row against row: entry (p, q) is Σ_k left[p, k] · right[q, k]. -/
theorem dense_entry {φ₁ φ₂ : FTy} (prec : Option ContractPrecision) (l : FVec Ideal S512x2048 φ₁) (r : FVec Ideal S2048x2048 φ₂)
    (p : Fin 512) (q : Fin 2048) :
    matmul dot_S512x2048_S2048x2048_S512x2048_1_1_0_0_n_n prec l r (constant (F := Ideal) S512x2048 .f32 0x00000000#32) (ix2 p q)
      = ∑ k : Fin 2048, l (ix2 p k) * r (ix2 q k) := by
  show FloatOps.matmul dot_S512x2048_S2048x2048_S512x2048_1_1_0_0_n_n prec l r (constant (F := Ideal) S512x2048 .f32 0x00000000#32) (ix2 p q) = _
  rw [Ideal.matmul_constant_zero_apply, ← Equiv.sum_comp (contrEquiv1 dot_S512x2048_S2048x2048_S512x2048_1_1_0_0_n_n 2048 rfl rfl).symm]
  refine Finset.sum_congr rfl fun k _ => ?_
  have hk := contrEquiv1_symm_val dot_S512x2048_S2048x2048_S512x2048_1_1_0_0_n_n 2048 rfl rfl k
  have el : dot_S512x2048_S2048x2048_S512x2048_1_1_0_0_n_n.lhsIdx (ix2 p q) ((contrEquiv1 dot_S512x2048_S2048x2048_S512x2048_1_1_0_0_n_n 2048 rfl rfl).symm k) = ix2 p k :=
    funext fun a => Fin.ext (by
      match a with
      | ⟨0, _⟩ => exact dense_entry_l0 _ _
      | ⟨1, _⟩ => exact (dense_entry_l1 _ _).trans hk)
  have er : dot_S512x2048_S2048x2048_S512x2048_1_1_0_0_n_n.rhsIdx (ix2 p q) ((contrEquiv1 dot_S512x2048_S2048x2048_S512x2048_1_1_0_0_n_n 2048 rfl rfl).symm k) = ix2 q k :=
    funext fun a => Fin.ext (by
      match a with
      | ⟨0, _⟩ => exact dense_entry_r0 _ _
      | ⟨1, _⟩ => exact (dense_entry_r1 _ _).trans hk)
  rw [el, er]

/-! ### `proj_entry` -/

theorem proj_entry_l0 (i : S512x16.Idx) (c : dot_S512x2048_S16x2048_S512x16_1_1_0_0_n_n.contr.Idx) : (dot_S512x2048_S16x2048_S512x16_1_1_0_0_n_n.lhsIdx i c 0).val = (i 0).val := by
  unfold DotDims.lhsIdx
  rw [dif_neg (show ¬(0 : Fin S512x2048.rank) ∈ dot_S512x2048_S16x2048_S512x16_1_1_0_0_n_n.lhsBatch by decide),
    dif_pos (show (0 : Fin S512x2048.rank) ∈ dot_S512x2048_S16x2048_S512x16_1_1_0_0_n_n.lhsNonContracting by decide)]
  rfl
theorem proj_entry_l1 (i : S512x16.Idx) (c : dot_S512x2048_S16x2048_S512x16_1_1_0_0_n_n.contr.Idx) : (dot_S512x2048_S16x2048_S512x16_1_1_0_0_n_n.lhsIdx i c 1).val = (c ⟨0, by decide⟩).val :=
  dot_S512x2048_S16x2048_S512x16_1_1_0_0_n_n.lhsIdx_val_of_single rfl i c
theorem proj_entry_r0 (i : S512x16.Idx) (c : dot_S512x2048_S16x2048_S512x16_1_1_0_0_n_n.contr.Idx) : (dot_S512x2048_S16x2048_S512x16_1_1_0_0_n_n.rhsIdx i c 0).val = (i 1).val := by
  unfold DotDims.rhsIdx
  rw [dif_neg (show ¬(0 : Fin S16x2048.rank) ∈ dot_S512x2048_S16x2048_S512x16_1_1_0_0_n_n.rhsBatch by decide),
    dif_pos (show (0 : Fin S16x2048.rank) ∈ dot_S512x2048_S16x2048_S512x16_1_1_0_0_n_n.rhsNonContracting by decide)]
  rfl
theorem proj_entry_r1 (i : S512x16.Idx) (c : dot_S512x2048_S16x2048_S512x16_1_1_0_0_n_n.contr.Idx) : (dot_S512x2048_S16x2048_S512x16_1_1_0_0_n_n.rhsIdx i c 1).val = (c ⟨0, by decide⟩).val :=
  dot_S512x2048_S16x2048_S512x16_1_1_0_0_n_n.rhsIdx_val_of_single rfl i c

/-- The same block of rows against the [16, 2048] low-rank factor: entry (p, r) is Σ_k left[p, k] · right[r, k]. -/
theorem proj_entry {φ₁ φ₂ : FTy} (prec : Option ContractPrecision) (l : FVec Ideal S512x2048 φ₁) (r : FVec Ideal S16x2048 φ₂)
    (p : Fin 512) (q : Fin 16) :
    matmul dot_S512x2048_S16x2048_S512x16_1_1_0_0_n_n prec l r (constant (F := Ideal) S512x16 .f32 0x00000000#32) (ix2 p q)
      = ∑ k : Fin 2048, l (ix2 p k) * r (ix2 q k) := by
  show FloatOps.matmul dot_S512x2048_S16x2048_S512x16_1_1_0_0_n_n prec l r (constant (F := Ideal) S512x16 .f32 0x00000000#32) (ix2 p q) = _
  rw [Ideal.matmul_constant_zero_apply, ← Equiv.sum_comp (contrEquiv1 dot_S512x2048_S16x2048_S512x16_1_1_0_0_n_n 2048 rfl rfl).symm]
  refine Finset.sum_congr rfl fun k _ => ?_
  have hk := contrEquiv1_symm_val dot_S512x2048_S16x2048_S512x16_1_1_0_0_n_n 2048 rfl rfl k
  have el : dot_S512x2048_S16x2048_S512x16_1_1_0_0_n_n.lhsIdx (ix2 p q) ((contrEquiv1 dot_S512x2048_S16x2048_S512x16_1_1_0_0_n_n 2048 rfl rfl).symm k) = ix2 p k :=
    funext fun a => Fin.ext (by
      match a with
      | ⟨0, _⟩ => exact proj_entry_l0 _ _
      | ⟨1, _⟩ => exact (proj_entry_l1 _ _).trans hk)
  have er : dot_S512x2048_S16x2048_S512x16_1_1_0_0_n_n.rhsIdx (ix2 p q) ((contrEquiv1 dot_S512x2048_S16x2048_S512x16_1_1_0_0_n_n 2048 rfl rfl).symm k) = ix2 q k :=
    funext fun a => Fin.ext (by
      match a with
      | ⟨0, _⟩ => exact proj_entry_r0 _ _
      | ⟨1, _⟩ => exact (proj_entry_r1 _ _).trans hk)
  rw [el, er]

/-! ### `corr_entry` -/

theorem corr_entry_l0 (i : S512x2048.Idx) (c : dot_S512x16_S2048x16_S512x2048_1_1_0_0_n_n.contr.Idx) : (dot_S512x16_S2048x16_S512x2048_1_1_0_0_n_n.lhsIdx i c 0).val = (i 0).val := by
  unfold DotDims.lhsIdx
  rw [dif_neg (show ¬(0 : Fin S512x16.rank) ∈ dot_S512x16_S2048x16_S512x2048_1_1_0_0_n_n.lhsBatch by decide),
    dif_pos (show (0 : Fin S512x16.rank) ∈ dot_S512x16_S2048x16_S512x2048_1_1_0_0_n_n.lhsNonContracting by decide)]
  rfl
theorem corr_entry_l1 (i : S512x2048.Idx) (c : dot_S512x16_S2048x16_S512x2048_1_1_0_0_n_n.contr.Idx) : (dot_S512x16_S2048x16_S512x2048_1_1_0_0_n_n.lhsIdx i c 1).val = (c ⟨0, by decide⟩).val :=
  dot_S512x16_S2048x16_S512x2048_1_1_0_0_n_n.lhsIdx_val_of_single rfl i c
theorem corr_entry_r0 (i : S512x2048.Idx) (c : dot_S512x16_S2048x16_S512x2048_1_1_0_0_n_n.contr.Idx) : (dot_S512x16_S2048x16_S512x2048_1_1_0_0_n_n.rhsIdx i c 0).val = (i 1).val := by
  unfold DotDims.rhsIdx
  rw [dif_neg (show ¬(0 : Fin S2048x16.rank) ∈ dot_S512x16_S2048x16_S512x2048_1_1_0_0_n_n.rhsBatch by decide),
    dif_pos (show (0 : Fin S2048x16.rank) ∈ dot_S512x16_S2048x16_S512x2048_1_1_0_0_n_n.rhsNonContracting by decide)]
  rfl
theorem corr_entry_r1 (i : S512x2048.Idx) (c : dot_S512x16_S2048x16_S512x2048_1_1_0_0_n_n.contr.Idx) : (dot_S512x16_S2048x16_S512x2048_1_1_0_0_n_n.rhsIdx i c 1).val = (c ⟨0, by decide⟩).val :=
  dot_S512x16_S2048x16_S512x2048_1_1_0_0_n_n.rhsIdx_val_of_single rfl i c

/-- The [512, 16] projection against the [2048, 16] low-rank factor: entry (p, q) is Σ_r left[p, r] · right[q, r]. -/
theorem corr_entry {φ₁ φ₂ : FTy} (prec : Option ContractPrecision) (l : FVec Ideal S512x16 φ₁) (r : FVec Ideal S2048x16 φ₂)
    (p : Fin 512) (q : Fin 2048) :
    matmul dot_S512x16_S2048x16_S512x2048_1_1_0_0_n_n prec l r (constant (F := Ideal) S512x2048 .f32 0x00000000#32) (ix2 p q)
      = ∑ k : Fin 16, l (ix2 p k) * r (ix2 q k) := by
  show FloatOps.matmul dot_S512x16_S2048x16_S512x2048_1_1_0_0_n_n prec l r (constant (F := Ideal) S512x2048 .f32 0x00000000#32) (ix2 p q) = _
  rw [Ideal.matmul_constant_zero_apply, ← Equiv.sum_comp (contrEquiv1 dot_S512x16_S2048x16_S512x2048_1_1_0_0_n_n 16 rfl rfl).symm]
  refine Finset.sum_congr rfl fun k _ => ?_
  have hk := contrEquiv1_symm_val dot_S512x16_S2048x16_S512x2048_1_1_0_0_n_n 16 rfl rfl k
  have el : dot_S512x16_S2048x16_S512x2048_1_1_0_0_n_n.lhsIdx (ix2 p q) ((contrEquiv1 dot_S512x16_S2048x16_S512x2048_1_1_0_0_n_n 16 rfl rfl).symm k) = ix2 p k :=
    funext fun a => Fin.ext (by
      match a with
      | ⟨0, _⟩ => exact corr_entry_l0 _ _
      | ⟨1, _⟩ => exact (corr_entry_l1 _ _).trans hk)
  have er : dot_S512x16_S2048x16_S512x2048_1_1_0_0_n_n.rhsIdx (ix2 p q) ((contrEquiv1 dot_S512x16_S2048x16_S512x2048_1_1_0_0_n_n 16 rfl rfl).symm k) = ix2 q k :=
    funext fun a => Fin.ext (by
      match a with
      | ⟨0, _⟩ => exact corr_entry_r0 _ _
      | ⟨1, _⟩ => exact (corr_entry_r1 _ _).trans hk)
  rw [el, er]

end Cert.KernelIdeal.Products

end
-- ==== Proof.Spec.lean ====
/-
  The mathematics of this certificate, stated without either program.

  The layer is a dense product shared by all batches plus a low-rank correction that differs per batch: for a
  batch `b`, a row `s` and an output column `o`,

      out[b, s, o] = Σ_k x[b,s,k] · W[o,k]  +  Σ_r (Σ_k x[b,s,k] · B[b,r,k]) · A[b,o,r]  +  bias[o]

  read on the extended reals. One program adds the three terms in the order written; the other adds the bias to
  the dense product first and the correction last. On the extended reals addition is commutative and associative
  (what fails at the infinities is cancellation and distributivity, and neither is used here), so the two groupings
  are equal at every input, finite or not: `regroup`.
-/
import Idealize.ShloMosaic.PureOps.Ideal
import Idealize.ShloMosaic.Lib.ValueIdx

noncomputable section

open scoped BigOperators

namespace Cert.LoraSpec

open Idealize.ShloMosaic Idealize.ShloMosaic.ValueIdx

/-- The dense product: row `s` of batch `b` of `x` against row `o` of `W`, summed over the 2048 input features. -/
def dense (x : (⟨3, ![8, 2048, 2048]⟩ : Shape).Idx → EReal) (W : (⟨2, ![2048, 2048]⟩ : Shape).Idx → EReal)
    (b : Fin 8) (s : Fin 2048) (o : Fin 2048) : EReal :=
  ∑ k : Fin 2048, x (ix3 b s k) * W (ix2 o k)

/-- The projection onto the 16 low-rank directions: the same row of `x` against row `r` of batch `b`'s `B`. -/
def proj (x : (⟨3, ![8, 2048, 2048]⟩ : Shape).Idx → EReal) (B : (⟨3, ![8, 16, 2048]⟩ : Shape).Idx → EReal)
    (b : Fin 8) (s : Fin 2048) (r : Fin 16) : EReal :=
  ∑ k : Fin 2048, x (ix3 b s k) * B (ix3 b r k)

/-- The low-rank correction: the projection against row `o` of batch `b`'s `A`, summed over the 16 directions. -/
def corr (x : (⟨3, ![8, 2048, 2048]⟩ : Shape).Idx → EReal) (A : (⟨3, ![8, 2048, 16]⟩ : Shape).Idx → EReal)
    (B : (⟨3, ![8, 16, 2048]⟩ : Shape).Idx → EReal) (b : Fin 8) (s : Fin 2048) (o : Fin 2048) : EReal :=
  ∑ r : Fin 16, proj x B b s r * A (ix3 b o r)

/-- One entry of the layer's output, by its three coordinates: (dense + correction) + bias. -/
def layerAt (x : (⟨3, ![8, 2048, 2048]⟩ : Shape).Idx → EReal) (A : (⟨3, ![8, 2048, 16]⟩ : Shape).Idx → EReal)
    (B : (⟨3, ![8, 16, 2048]⟩ : Shape).Idx → EReal) (W : (⟨2, ![2048, 2048]⟩ : Shape).Idx → EReal)
    (bias : (⟨1, ![2048]⟩ : Shape).Idx → EReal) (b : Fin 8) (s : Fin 2048) (o : Fin 2048) : EReal :=
  (dense x W b s o + corr x A B b s o) + bias (ix1 o)

/-- The layer's output array as ONE function of the five argument arrays, index by index. -/
def layer (x : (⟨3, ![8, 2048, 2048]⟩ : Shape).Idx → EReal) (A : (⟨3, ![8, 2048, 16]⟩ : Shape).Idx → EReal)
    (B : (⟨3, ![8, 16, 2048]⟩ : Shape).Idx → EReal) (W : (⟨2, ![2048, 2048]⟩ : Shape).Idx → EReal)
    (bias : (⟨1, ![2048]⟩ : Shape).Idx → EReal) : (⟨3, ![8, 2048, 2048]⟩ : Shape).Idx → EReal :=
  fun i => layerAt x A B W bias ⟨(i 0).val, (i 0).isLt⟩ ⟨(i 1).val, (i 1).isLt⟩ ⟨(i 2).val, (i 2).isLt⟩

/-- At an index given by its coordinates the layer is `layerAt` of them. -/
theorem layer_ix3 (x : (⟨3, ![8, 2048, 2048]⟩ : Shape).Idx → EReal) (A : (⟨3, ![8, 2048, 16]⟩ : Shape).Idx → EReal)
    (B : (⟨3, ![8, 16, 2048]⟩ : Shape).Idx → EReal) (W : (⟨2, ![2048, 2048]⟩ : Shape).Idx → EReal)
    (bias : (⟨1, ![2048]⟩ : Shape).Idx → EReal) (b : Fin 8) (s : Fin 2048) (o : Fin 2048) :
    layer x A B W bias (ix3 b s o) = layerAt x A B W bias b s o := rfl

/-- The law that joins the two programs: (dense + bias) + correction = (dense + correction) + bias. Commutativity and
    associativity of addition only, so it holds at the infinities as well. -/
theorem regroup (d c β : EReal) : (d + β) + c = (d + c) + β := add_right_comm d β c

end Cert.LoraSpec

end
-- ==== Proof.Payload.lean ====
/-
  The body's one stored value, read at an entry.

  At a grid point the body loads a [1, 512, 2048] block of rows of `x`, the whole [2048, 2048] weight, that batch's
  [1, 16, 2048] and [1, 2048, 16] low-rank factors and the [1, 2048] bias row, and stores ONE [1, 512, 2048] block. Its
  leading unit axes are dropped and re-added by shape casts, the narrowing of the rows and factors to a shorter float
  format is the identity on the extended reals, and the bias row is broadcast over the 512 rows. So entry (·, p, q) of the
  stored block is

      (Σ_k x0[p, k] · w[q, k]  +  Σ_r (Σ_k x0[p, k] · lo[r, k]) · up[q, r])  +  bias[q]

  of the loaded blocks (`payload_entry`). When the loaded blocks are the right pieces of the five arrays — rows of
  batch `b` starting where the point's row tile starts, the whole weight, batch `b`'s factors, the whole bias — that is
  entry (b, s, o) of the layer (`payload_layer`).
-/
import proofs.«156677_j67774583931082_2_alg».proof.Proof.Gen.KernelIdeal.Skeleton
import proofs.«156677_j67774583931082_2_alg».proof.Proof.Products
import proofs.«156677_j67774583931082_2_alg».proof.Proof.Spec
import Idealize.ShloMosaic.Lib.Pipeline.Value
import Idealize.ShloMosaic.Lib.ValueLayout

noncomputable section

open scoped BigOperators

namespace Cert.KernelIdeal.Payload

open Cert.KernelIdeal Cert.KernelIdeal.Gen Cert.KernelIdeal.Products Cert.LoraSpec
open Idealize.ShloMosaic Idealize.ShloMosaic.ValueIdx

/-- Entry (u, p, q) of the stored block, as sums over the loaded blocks. -/
theorem payload_entry (x0 : FVec Ideal S1x512x2048 .f32) (x1 : FVec Ideal S2048x2048 .bf16) (x2 : FVec Ideal S1x16x2048 .bf16)
    (x3 : FVec Ideal S1x2048x16 .f32) (x4 : FVec Ideal S1x2048 .f32) (u : Fin 1) (p : Fin 512) (q : Fin 2048) :
    k0_pay1 (F := Ideal) x0 x1 x2 x3 x4 (ix3 u p q)
      = ((∑ k : Fin 2048, x0 (ix3 (0 : Fin 1) p k) * x1 (ix2 q k))
          + ∑ r : Fin 16, (∑ k : Fin 2048, x0 (ix3 (0 : Fin 1) p k) * x2 (ix3 (0 : Fin 1) r k)) * x3 (ix3 (0 : Fin 1) q r))
        + x4 (ix2 (0 : Fin 1) q) := by
  unfold k0_pay1
  rw [shapeCast_ab_1ab_apply, addf_apply, addf_apply, broadcastTo_1b_ab_apply, shapeCast_self, dense_entry, corr_entry]
  simp only [proj_entry, truncf_apply, shapeCast_1ab_ab_apply, shapeCast_self]

/-- With the loaded blocks the right pieces of the five arrays, the stored block's entry at row `p`, column `o` is the
    layer's entry at batch `b`, row `s`, column `o`. -/
theorem payload_layer (x0 : FVec Ideal S1x512x2048 .f32) (x1 : FVec Ideal S2048x2048 .bf16) (x2 : FVec Ideal S1x16x2048 .bf16)
    (x3 : FVec Ideal S1x2048x16 .f32) (x4 : FVec Ideal S1x2048 .f32)
    (X : S8x2048x2048.Idx → EReal) (A : S8x2048x16.Idx → EReal) (B : S8x16x2048.Idx → EReal) (W : S2048x2048.Idx → EReal)
    (bias : S2048.Idx → EReal) (b : Fin 8) (s : Fin 2048) (p : Fin 512) (o : Fin 2048)
    (h0 : ∀ k : Fin 2048, x0 (ix3 (0 : Fin 1) p k) = X (ix3 b s k))
    (h1 : ∀ k : Fin 2048, x1 (ix2 o k) = W (ix2 o k))
    (h2 : ∀ (r : Fin 16) (k : Fin 2048), x2 (ix3 (0 : Fin 1) r k) = B (ix3 b r k))
    (h3 : ∀ r : Fin 16, x3 (ix3 (0 : Fin 1) o r) = A (ix3 b o r))
    (h4 : x4 (ix2 (0 : Fin 1) o) = bias (ix1 o))
    (j : S1x512x2048.Idx) (hp : (j 1).val = p.val) (ho : (j 2).val = o.val) :
    k0_pay1 (F := Ideal) x0 x1 x2 x3 x4 j = layerAt X A B W bias b s o := by
  obtain ⟨u, p', o', rfl⟩ : ∃ (u : Fin 1) (p' : Fin 512) (o' : Fin 2048), j = ix3 u p' o' := ⟨j 0, j 1, j 2, eq_ix3 j⟩
  obtain rfl : p' = p := Fin.ext hp
  obtain rfl : o' = o := Fin.ext ho
  rw [payload_entry]
  unfold layerAt dense corr proj
  simp only [h0, h1, h2, h3, h4]

end Cert.KernelIdeal.Payload

end
-- ==== Proof.Whole.lean ====
/-
  From the blocks to the whole array.

  The grid has 8 · 4 points: point (b, σ) works on batch `b` and on the 512 rows starting at row 512·σ. It reads that row
  tile of `x`, the whole weight, batch `b`'s two low-rank factors and the whole bias row, and writes back the matching
  [1, 512, 2048] tile of the output. Three of the arrays the region reads were written by the host just before it: the
  weight and the factor `B` narrowed to a shorter float format — the identity on the extended reals — and the bias
  reshaped from [2048] to [1, 2048]; so the region finds the arguments themselves there.

  Hence what point (b, σ) writes back is its tile of ONE function of the five argument arrays, the layer (`point_block`);
  the 32 tiles cover the output array, the tile of row `s` of batch `b` being the one at (b, s / 512) (`covered`); so after
  the run the output array is the layer of the arguments (`final`, `run`).
-/
import proofs.«156677_j67774583931082_2_alg».proof.Proof.Gen.KernelIdeal.Value
import proofs.«156677_j67774583931082_2_alg».proof.Proof.Payload
import Idealize.ShloMosaic.Lib.StableHlo.Run
import Idealize.ShloMosaic.Lib.ValueLayout

noncomputable section

namespace Cert.KernelIdeal.Whole

open Cert.KernelIdeal Cert.KernelIdeal.Gen Cert.KernelIdeal.Value Cert.KernelIdeal.Payload Cert.LoraSpec
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The output array after the run: the layer of the five argument arrays as launched. -/
def result (c : Dev nD) : S8x2048x2048.Idx → EReal :=
  layer (m ((c : Thread nD τ).loc main_arg0)) (m ((c : Thread nD τ).loc main_arg1)) (m ((c : Thread nD τ).loc main_arg2)) (m ((c : Thread nD τ).loc main_arg3)) (m ((c : Thread nD τ).loc main_arg4))

/-! ## The arrays the region finds -/

/-- The weight the region reads is the argument: the host only narrowed its float format. -/
theorem weight_found (c : Dev nD) :
    (V m c main_v0 : S2048x2048.Idx → EReal) = ((m ((c : Thread nD τ).loc main_arg3)) : S2048x2048.Idx → EReal) := by
  dsimp only [Gen.V, Gen.hostOps0]
  after_results
  rfl

/-- The low-rank factor `B` the region reads is the argument, for the same reason. -/
theorem lowrank_found (c : Dev nD) :
    (V m c main_v1 : S8x16x2048.Idx → EReal) = ((m ((c : Thread nD τ).loc main_arg2)) : S8x16x2048.Idx → EReal) := by
  dsimp only [Gen.V, Gen.hostOps0]
  after_results
  rfl

/-- The bias row the region reads, at column `o`, is the bias argument at `o`: the host reshaped [2048] to [1, 2048]. -/
theorem bias_found (c : Dev nD) (o : Fin 2048) :
    (V m c main_v2 : S1x2048.Idx → EReal) (ix2 (0 : Fin 1) o) = ((m ((c : Thread nD τ).loc main_arg4)) : S2048.Idx → EReal) (ix1 o) := by
  have e : (V m c main_v2 : S1x2048.Idx → EReal)
      = shapeCast S1x2048 ((m ((c : Thread nD τ).loc main_arg4)) : S2048.Idx → EReal) shapeCasts_S2048_S1x2048 := by
    dsimp only [Gen.V, Gen.hostOps0]
    after_results
    rfl
  rw [e]
  exact shapeCast_a_1a_apply _ _ (0 : Fin 1) o

/-! ## The index maps, decided over the 32 points -/

/-- At every point: the output tile's batch is below 8, its row tile below 4, its column tile 0; the rows of `x` move with
    the output; the weight and the bias stay at their one block; both low-rank factors follow the batch alone. -/
theorem point_indices : ∀ t : Fin cfg0.N,
    win0_5.index t (0 : Fin 3) < 8 ∧ win0_5.index t (1 : Fin 3) < 4 ∧ win0_5.index t (2 : Fin 3) = 0
    ∧ win0_0.index t (0 : Fin 3) = win0_5.index t (0 : Fin 3) ∧ win0_0.index t (1 : Fin 3) = win0_5.index t (1 : Fin 3)
    ∧ win0_0.index t (2 : Fin 3) = 0
    ∧ win0_1.index t (0 : Fin 2) = 0 ∧ win0_1.index t (1 : Fin 2) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = 0 ∧ win0_3.index t (2 : Fin 3) = 0
    ∧ win0_4.index t (0 : Fin 2) = 0 ∧ win0_4.index t (1 : Fin 2) = 0 :=
  (by decide +kernel : ∀ t : Fin grid0.N, _)

/-- Every (batch, row tile) is some point's output tile. -/
theorem every_tile : ∀ (q0 : Fin 8) (q1 : Fin 4), ∃ t : Fin cfg0.N, win0_5.index t = ![q0.val, q1.val, 0] :=
  (by decide +kernel : ∀ (q0 : Fin 8) (q1 : Fin 4), ∃ t : Fin grid0.N, win0_5.index t = ![q0.val, q1.val, 0])

/-! ## Each input block as a piece of its array -/

/-- The block of `x` at a point, row `p`: row `s` of batch `b` of the argument, when the tile starts where `s - p` is. -/
theorem rows_block (c : Dev nD) (t : Fin cfg0.N) (b : Fin 8) (s : Fin 2048) (p : Fin 512) (k : Fin 2048)
    (hb : b.val = win0_0.index t (0 : Fin 3)) (hs : s.val = win0_0.index t (1 : Fin 3) * 512 + p.val)
    (h2 : win0_0.index t (2 : Fin 3) = 0) :
    (iblk m c 0 t : S1x512x2048.Idx → EReal) (ix3 (0 : Fin 1) p k)
      = ((m ((c : Thread nD τ).loc main_arg0)) : S8x2048x2048.Idx → EReal) (ix3 b s k) := by
  show V m c main_arg0 (((cfg0.win 0).blk t).view.emb (ix3 (0 : Fin 1) p k)) = _
  rw [V_main_arg0 m c]
  refine congrArg (m ((c : Thread nD τ).loc main_arg0)) ?_
  funext a; apply Fin.ext
  match a with
  | ⟨0, _⟩ => show win0_0.index t (0 : Fin 3) * 1 + 1 * 0 = b.val; omega
  | ⟨1, _⟩ => show win0_0.index t (1 : Fin 3) * 512 + 1 * p.val = s.val; omega
  | ⟨2, _⟩ => show win0_0.index t (2 : Fin 3) * 2048 + 1 * k.val = k.val; omega

/-- The weight's one block is the whole weight argument. -/
theorem weight_block (c : Dev nD) (t : Fin cfg0.N) (o k : Fin 2048)
    (h0 : win0_1.index t (0 : Fin 2) = 0) (h1 : win0_1.index t (1 : Fin 2) = 0) :
    (iblk m c 1 t : S2048x2048.Idx → EReal) (ix2 o k) = ((m ((c : Thread nD τ).loc main_arg3)) : S2048x2048.Idx → EReal) (ix2 o k) := by
  show (V m c main_v0 : S2048x2048.Idx → EReal) (((cfg0.win 1).blk t).view.emb (ix2 o k)) = _
  rw [weight_found m c]
  refine congrArg (m ((c : Thread nD τ).loc main_arg3)) ?_
  funext a; apply Fin.ext
  match a with
  | ⟨0, _⟩ => show win0_1.index t (0 : Fin 2) * 2048 + 1 * o.val = o.val; omega
  | ⟨1, _⟩ => show win0_1.index t (1 : Fin 2) * 2048 + 1 * k.val = k.val; omega

/-- The block of the factor `B` at a point is batch `b` of the argument. -/
theorem lowrank_block (c : Dev nD) (t : Fin cfg0.N) (b : Fin 8) (r : Fin 16) (k : Fin 2048)
    (hb : b.val = win0_2.index t (0 : Fin 3)) (h1 : win0_2.index t (1 : Fin 3) = 0) (h2 : win0_2.index t (2 : Fin 3) = 0) :
    (iblk m c 2 t : S1x16x2048.Idx → EReal) (ix3 (0 : Fin 1) r k)
      = ((m ((c : Thread nD τ).loc main_arg2)) : S8x16x2048.Idx → EReal) (ix3 b r k) := by
  show (V m c main_v1 : S8x16x2048.Idx → EReal) (((cfg0.win 2).blk t).view.emb (ix3 (0 : Fin 1) r k)) = _
  rw [lowrank_found m c]
  refine congrArg (m ((c : Thread nD τ).loc main_arg2)) ?_
  funext a; apply Fin.ext
  match a with
  | ⟨0, _⟩ => show win0_2.index t (0 : Fin 3) * 1 + 1 * 0 = b.val; omega
  | ⟨1, _⟩ => show win0_2.index t (1 : Fin 3) * 16 + 1 * r.val = r.val; omega
  | ⟨2, _⟩ => show win0_2.index t (2 : Fin 3) * 2048 + 1 * k.val = k.val; omega

/-- The block of the factor `A` at a point is batch `b` of the argument. -/
theorem uprank_block (c : Dev nD) (t : Fin cfg0.N) (b : Fin 8) (o : Fin 2048) (r : Fin 16)
    (hb : b.val = win0_3.index t (0 : Fin 3)) (h1 : win0_3.index t (1 : Fin 3) = 0) (h2 : win0_3.index t (2 : Fin 3) = 0) :
    (iblk m c 3 t : S1x2048x16.Idx → EReal) (ix3 (0 : Fin 1) o r)
      = ((m ((c : Thread nD τ).loc main_arg1)) : S8x2048x16.Idx → EReal) (ix3 b o r) := by
  show V m c main_arg1 (((cfg0.win 3).blk t).view.emb (ix3 (0 : Fin 1) o r)) = _
  rw [V_main_arg1 m c]
  refine congrArg (m ((c : Thread nD τ).loc main_arg1)) ?_
  funext a; apply Fin.ext
  match a with
  | ⟨0, _⟩ => show win0_3.index t (0 : Fin 3) * 1 + 1 * 0 = b.val; omega
  | ⟨1, _⟩ => show win0_3.index t (1 : Fin 3) * 2048 + 1 * o.val = o.val; omega
  | ⟨2, _⟩ => show win0_3.index t (2 : Fin 3) * 16 + 1 * r.val = r.val; omega

/-- The bias row's one block, at column `o`, is the bias argument at `o`. -/
theorem bias_block (c : Dev nD) (t : Fin cfg0.N) (o : Fin 2048)
    (h0 : win0_4.index t (0 : Fin 2) = 0) (h1 : win0_4.index t (1 : Fin 2) = 0) :
    (iblk m c 4 t : S1x2048.Idx → EReal) (ix2 (0 : Fin 1) o) = ((m ((c : Thread nD τ).loc main_arg4)) : S2048.Idx → EReal) (ix1 o) := by
  show (V m c main_v2 : S1x2048.Idx → EReal) (((cfg0.win 4).blk t).view.emb (ix2 (0 : Fin 1) o)) = _
  have he : ((cfg0.win 4).blk t).view.emb (ix2 (0 : Fin 1) o) = ix2 (0 : Fin 1) o := by
    funext a; apply Fin.ext
    match a with
    | ⟨0, _⟩ => show win0_4.index t (0 : Fin 2) * 1 + 1 * 0 = 0; omega
    | ⟨1, _⟩ => show win0_4.index t (1 : Fin 2) * 2048 + 1 * o.val = o.val; omega
  rw [he]
  exact bias_found m c o

/-! ## What a point writes back, the cover, the array -/

/-- What point `t` writes back is its tile of the layer of the arguments. -/
theorem point_block (c : Dev nD) (t : Fin cfg0.N) :
    (dats m 0 c).flushed 5 t = ((cfg0.win 5).blk t).view.read (Elt Ideal) (result m c) := by
  rw [flushed5]
  unfold out0_5
  rw [View.canon_unit_zero zeros3]
  simp only [View.ld_unit_zero (S := S1x512x2048) zeros3, View.ld_unit_zero (S := S2048x2048) zeros2,
    View.ld_unit_zero (S := S1x16x2048) zeros3, View.ld_unit_zero (S := S1x2048x16) zeros3,
    View.ld_unit_zero (S := S1x2048) zeros2]
  obtain ⟨f0, f1, f2, g0, g1, g2, w0, w1, l0, l1, l2, u0, u1, u2, b0, b1⟩ := point_indices t
  funext j
  have hj0 : (j 0).val < 1 := (j 0).isLt
  have hj1 : (j 1).val < 512 := (j 1).isLt
  have hj2 : (j 2).val < 2048 := (j 2).isLt
  obtain ⟨b, hb⟩ : ∃ b : Fin 8, b.val = win0_5.index t (0 : Fin 3) := ⟨⟨_, f0⟩, rfl⟩
  obtain ⟨p, hp⟩ : ∃ p : Fin 512, p.val = (j 1).val := ⟨⟨_, hj1⟩, rfl⟩
  obtain ⟨o, ho⟩ : ∃ o : Fin 2048, o.val = (j 2).val := ⟨⟨_, hj2⟩, rfl⟩
  obtain ⟨s, hs⟩ : ∃ s : Fin 2048, s.val = win0_5.index t (1 : Fin 3) * 512 + (j 1).val := ⟨⟨_, by omega⟩, rfl⟩
  have hemb : ((cfg0.win 5).blk t).view.emb j = ix3 b s o := by
    funext a; apply Fin.ext
    match a with
    | ⟨0, _⟩ => show win0_5.index t (0 : Fin 3) * 1 + 1 * (j 0).val = b.val; omega
    | ⟨1, _⟩ => show win0_5.index t (1 : Fin 3) * 512 + 1 * (j 1).val = s.val; omega
    | ⟨2, _⟩ => show win0_5.index t (2 : Fin 3) * 2048 + 1 * (j 2).val = o.val; omega
  show k0_pay1 (F := Ideal) (iblk m c 0 t) (iblk m c 1 t) (iblk m c 2 t) (iblk m c 3 t) (iblk m c 4 t) j
    = result m c (((cfg0.win 5).blk t).view.emb j)
  rw [hemb]
  unfold result
  rw [layer_ix3]
  exact payload_layer (iblk m c 0 t) (iblk m c 1 t) (iblk m c 2 t) (iblk m c 3 t) (iblk m c 4 t)
    (m ((c : Thread nD τ).loc main_arg0)) (m ((c : Thread nD τ).loc main_arg1)) (m ((c : Thread nD τ).loc main_arg2)) (m ((c : Thread nD τ).loc main_arg3)) (m ((c : Thread nD τ).loc main_arg4)) b s p o
    (fun k => rows_block m c t b s p k (by omega) (by omega) g2)
    (fun k => weight_block m c t o k w0 w1)
    (fun r k => lowrank_block m c t b r k (by omega) l1 l2)
    (fun r => uprank_block m c t b o r (by omega) u1 u2)
    (bias_block m c t o b0 b1)
    j hp.symm ho.symm

/-- An index of the output array is in point `t`'s tile iff each coordinate is in the tile's range on its axis. -/
theorem mem_tile (t : Fin cfg0.N) (i : S8x2048x2048.Idx) :
    i ∈ ((cfg0.win 5).blk t).view.set ↔ ∀ a : Fin 3, win0_5.index t a * S1x512x2048.size a ≤ (i a).val
      ∧ (i a).val < win0_5.index t a * S1x512x2048.size a + S1x512x2048.size a := by
  show i ∈ ((View.whole main_v3).slice (win0_5.rect t)).set ↔ _
  rw [View.set_slice_whole, Rect.mem_set_unit]
  exact Iff.rfl

/-- Every index of the output array lies in some point's tile: row `s` of batch `b` in the tile at (b, s / 512). -/
theorem covered (i : S8x2048x2048.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 2048 := (i 2).isLt
  obtain ⟨t, ht⟩ := every_tile ⟨(i 0).val, hi0⟩ ⟨(i 1).val / 512, by omega⟩
  have q0 : win0_5.index t (0 : Fin 3) = (i 0).val := congrFun ht 0
  have q1 : win0_5.index t (1 : Fin 3) = (i 1).val / 512 := congrFun ht 1
  have q2 : win0_5.index t (2 : Fin 3) = 0 := congrFun ht 2
  refine ⟨t, flush0_5 t, ?_⟩
  rw [mem_tile]
  intro a
  match a with
  | ⟨0, _⟩ =>
    show win0_5.index t (0 : Fin 3) * 1 ≤ (i 0).val ∧ (i 0).val < win0_5.index t (0 : Fin 3) * 1 + 1
    omega
  | ⟨1, _⟩ =>
    show win0_5.index t (1 : Fin 3) * 512 ≤ (i 1).val ∧ (i 1).val < win0_5.index t (1 : Fin 3) * 512 + 512
    omega
  | ⟨2, _⟩ =>
    show win0_5.index t (2 : Fin 3) * 2048 ≤ (i 2).val ∧ (i 2).val < win0_5.index t (2 : Fin 3) * 2048 + 2048
    omega

/-- The output array after the run is the layer of the arguments. -/
theorem final (c : Dev nD) : (dats m 0 c).arrAt 5 cfg0.N = result m c :=
  (dats m 0 c).arrAt_eq_of_cover 5 (result m c) (fun t _ => point_block m c t) covered

/-- The kernel's run, read: every weakly fair execution ends with the output array at the layer of the arguments and
    the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final m c), (h c).2⟩) (run_blocks m ρ)

end Cert.KernelIdeal.Whole

end
-- ==== Proof.RefValue.lean ====
/-
  The reference computes the layer.

  Read one operation at a time, entry (b, s, o) of the reference's result is
      (Σ_k x[b,s,k] · W[o,k]  +  bias[o])  +  Σ_r (Σ_k x[b,s,k] · B[b,r,k]) · A[b,o,r]:
  the first contraction runs over the last axis of `x` and of `W`; the bias is broadcast along the batch and row axes,
  so only the column `o` selects its entry; the two batched contractions keep the batch `b` on both operands. That is the
  layer with the bias added before the correction instead of after it, and the regrouping law closes the gap.
-/
import proofs.«156677_j67774583931082_2_alg».proof.Proof.Gen.ReferenceIdeal.Read
import proofs.«156677_j67774583931082_2_alg».proof.Proof.Spec

noncomputable section

open scoped BigOperators

namespace Cert.ReferenceIdeal.RefValue

open Cert.ReferenceIdeal Cert.ReferenceIdeal.Read Idealize.ShloMosaic Idealize.ShloMosaic.ValueIdx Cert.LoraSpec

/-! ## The operand indices of each operation at entry (b, s, o) -/

/-- The dense product reads `x` at (b, s, k) … -/
theorem dense_left (b : Fin 8) (s o : Fin 2048) (k : Fin 2048) : lidx_main_v0 (ix3 b s o) k = ix3 b s k :=
  funext fun a => by match a with | ⟨0, _⟩ => rfl | ⟨1, _⟩ => rfl | ⟨2, _⟩ => rfl
/-- … and `W` at (o, k). -/
theorem dense_right (b : Fin 8) (s o : Fin 2048) (k : Fin 2048) : ridx_main_v0 (ix3 b s o) k = ix2 o k :=
  funext fun a => by match a with | ⟨0, _⟩ => rfl | ⟨1, _⟩ => rfl
/-- The broadcast bias reads the bias vector at the column `o`. -/
theorem bias_at (b : Fin 8) (s o : Fin 2048) : idx_main_v1 (idx_main_v2 (ix3 b s o)) = ix1 o :=
  funext fun a => by match a with | ⟨0, _⟩ => rfl
/-- The correction reads the projection at (b, s, r) … -/
theorem corr_left (b : Fin 8) (s o : Fin 2048) (r : Fin 16) : lidx_main_v5 (ix3 b s o) r = ix3 b s r :=
  funext fun a => by match a with | ⟨0, _⟩ => rfl | ⟨1, _⟩ => rfl | ⟨2, _⟩ => rfl
/-- … and `A` at (b, o, r). -/
theorem corr_right (b : Fin 8) (s o : Fin 2048) (r : Fin 16) : ridx_main_v5 (ix3 b s o) r = ix3 b o r :=
  funext fun a => by match a with | ⟨0, _⟩ => rfl | ⟨1, _⟩ => rfl | ⟨2, _⟩ => rfl
/-- The projection at (b, s, r) reads `x` at (b, s, k) … -/
theorem proj_left (b : Fin 8) (s : Fin 2048) (r : Fin 16) (k : Fin 2048) : lidx_main_v4 (ix3 b s r) k = ix3 b s k :=
  funext fun a => by match a with | ⟨0, _⟩ => rfl | ⟨1, _⟩ => rfl | ⟨2, _⟩ => rfl
/-- … and `B` at (b, r, k). -/
theorem proj_right (b : Fin 8) (s : Fin 2048) (r : Fin 16) (k : Fin 2048) : ridx_main_v4 (ix3 b s r) k = ix3 b r k :=
  funext fun a => by match a with | ⟨0, _⟩ => rfl | ⟨1, _⟩ => rfl | ⟨2, _⟩ => rfl

/-! ## The result -/

/-- The reference's last stage, as a function of the five argument arrays, is the layer. -/
theorem result_eq_layer (x0 : (⟨S8x2048x2048, .f32⟩ : BufTy).Contents (Elt Ideal)) (x1 : (⟨S8x2048x16, .f32⟩ : BufTy).Contents (Elt Ideal))
    (x2 : (⟨S8x16x2048, .f32⟩ : BufTy).Contents (Elt Ideal)) (x3 : (⟨S2048x2048, .f32⟩ : BufTy).Contents (Elt Ideal))
    (x4 : (⟨S2048, .f32⟩ : BufTy).Contents (Elt Ideal)) :
    val_main_v6 (F := Ideal) x0 x1 x2 x3 x4 = layer x0 x1 x2 x3 x4 := by
  funext i
  obtain ⟨b, s, o, rfl⟩ : ∃ (b : Fin 8) (s : Fin 2048) (o : Fin 2048), i = ix3 b s o := ⟨i 0, i 1, i 2, eq_ix3 i⟩
  rw [layer_ix3, val_main_v6_apply, val_main_v3_apply, val_main_v0_apply, val_main_v2_apply, val_main_v1_apply,
    val_main_v5_apply]
  simp only [val_main_v4_apply, dense_left, dense_right, bias_at, corr_left, corr_right, proj_left, proj_right,
    Ideal.addf_def]
  unfold layerAt dense corr proj
  exact regroup _ _ _

end Cert.ReferenceIdeal.RefValue

end
-- ==== Proof.lean ====
/-
  The certificate: a dense linear layer shared by all batches, fused with a per-batch low-rank correction, against its
  plain reference, on the extended reals.

  Both programs compute, at batch `b`, row `s`, output column `o`,
      Σ_k x[b,s,k] · W[o,k]  +  Σ_r (Σ_k x[b,s,k] · B[b,r,k]) · A[b,o,r]  +  bias[o];
  the kernel adds the bias last, the reference adds it to the dense product before the correction, and addition on the
  extended reals is commutative and associative, so the results agree at every input (the precondition that the inputs
  are finite is not needed for the equality of values).

  * the three frames: each program terminates without a fault and leaves its arguments as they were — the two kernels'
    from their runs over the grid, the reference's from its run as a sequence of host operations;
  * the idealized kernel is the kernel's own text read at the ideal values: nothing was rewritten, nothing to show;
  * the values: the kernel's output array after its run is the layer of the arguments (tile by tile, the tiles
    covering the array), and so is the reference's result (operation by operation, then the regrouping of the sum).
-/
import proofs.«156677_j67774583931082_2_alg».proof.Defs
import proofs.«156677_j67774583931082_2_alg».proof.Proof.Gen.Kernel
import proofs.«156677_j67774583931082_2_alg».proof.Proof.Gen.Kernel.Skeleton
import proofs.«156677_j67774583931082_2_alg».proof.Proof.Gen.Kernel.Launch
import proofs.«156677_j67774583931082_2_alg».proof.Proof.Gen.Kernel.Points
import proofs.«156677_j67774583931082_2_alg».proof.Proof.Gen.Kernel.Frame
import proofs.«156677_j67774583931082_2_alg».proof.Proof.Gen.KernelIdeal
import proofs.«156677_j67774583931082_2_alg».proof.Proof.Gen.KernelIdeal.Skeleton
import proofs.«156677_j67774583931082_2_alg».proof.Proof.Gen.KernelIdeal.Launch
import proofs.«156677_j67774583931082_2_alg».proof.Proof.Gen.KernelIdeal.Points
import proofs.«156677_j67774583931082_2_alg».proof.Proof.Gen.KernelIdeal.Frame
import proofs.«156677_j67774583931082_2_alg».proof.Proof.Gen.ReferenceIdeal
import proofs.«156677_j67774583931082_2_alg».proof.Proof.Gen.Pre_finite_inputs
import proofs.«156677_j67774583931082_2_alg».proof.Proof.Gen.KernelIdeal.Value
import proofs.«156677_j67774583931082_2_alg».proof.Proof.Gen.ReferenceIdeal.Run
import proofs.«156677_j67774583931082_2_alg».proof.Proof.Gen.ReferenceIdeal.Read
import proofs.«156677_j67774583931082_2_alg».proof.Proof.Whole
import proofs.«156677_j67774583931082_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel terminates, faults nowhere and keeps its arguments. -/
theorem frame_kernel : Cert.frame_Kernel := fun m ρ _ => Cert.Kernel.Gen.frame m ρ

/-- So does the kernel read at the ideal values. -/
theorem frame_kernel_ideal : Cert.frame_KernelIdeal := fun m ρ _ => Cert.KernelIdeal.Gen.frame m ρ

/-- So does the reference: its run, with the statement about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the layer of those arguments in their result
    arrays: the kernel tile by tile, the reference operation by operation. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.result_eq_layer,
    (hagree c).1, (hagree c).2.1, (hagree c).2.2.1, (hagree c).2.2.2.1, (hagree c).2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
